-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) (main_arg8 : FVec F S64x32 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 92
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S1x32, .f32⟩
  | .hbm, ⟨89, _⟩ => ⟨S100000x32, .f32⟩
  | .hbm, ⟨90, _⟩ => ⟨S1x32, .f32⟩
  | .hbm, ⟨91, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S1x32, .f32⟩
  | .local _ .vmem, ⟨24, _⟩ => ⟨S10000x32, .f32⟩
  | .local _ .vmem, ⟨25, _⟩ => ⟨S10000x32, .f32⟩
  | .local _ .vmem, ⟨26, _⟩ => ⟨S10000x64, .f32⟩
  | .local _ .vmem, ⟨27, _⟩ => ⟨S10000x64, .f32⟩
  | .local _ .vmem, ⟨28, _⟩ => ⟨S64x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S100000x32.size a
  hwx5_3 : ∀ i : grid5.Coords, EltTy.bits .f32 = 32 ∨ (Rect.block (s := S100000x32) S10000x32.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 144
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x32, .f32⟩
  | 9 => ⟨S32, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1x1600000, .i32⟩
  | 75 => ⟨S1600000, .i32⟩
  | 76 => ⟨S1700000, .i32⟩
  | 77 => ⟨S1x1600000, .i32⟩
  | 78 => ⟨S1600000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x64, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x32, .f32⟩
  | 9 => ⟨S1x32, .f32⟩
  | 10 => ⟨S100000x32, .f32⟩
  | 11 => ⟨S100000x32, .f32⟩
  | 12 => ⟨S100000x32, .f32⟩
  | 13 => ⟨S1x32, .f32⟩
  | 14 => ⟨S100000x32, .f32⟩
  | 15 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The whole program's run, read at its last boundary.

  The program is six pipelined kernel regions among stretches of host operations. Its buffer contents are followed
  boundary by boundary: a host stretch leaves the contents its operations compute from the contents before it, and a
  region leaves each of its arrays at what its grid points wrote back and every other buffer as it found it. The last
  of these contents is what every weakly fair execution ends with, at every buffer that lives for the whole program:
  that is the statement here. Each result array and each argument array is then one reading of it.
-/
import proofs.«118799_j7121055776880_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final memory every buffer
    that lives for the whole program holds, on every core, the contents of the last boundary. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The final memory at one buffer that lives for the whole program: the last boundary's contents there. -/
theorem last_at {r : PUnit × MemSt nD τ sig (Elt F)}
    (h : ∀ c : Dev nD, ∀ b ∈ Pipeline.ucRefs τ sig, r.2.mem (((c : Thread nD τ)).1, b) = W13 m ρ c b)
    (c : Dev nD) (b : Ref sig .tc) (hb : ¬ (Proc.devRef .tc b : DevRef τ sig).isScoped) :
    r.2.mem ((c.tc : Thread nD τ).loc b) = W13 m ρ c (Proc.devRef .tc b) :=
  h c _ (mem_uc b hb)

end Cert.KernelIdeal.Whole

end
-- ==== Proof.Spec.lean ====
/-
  The two programs' common mathematics, as named functions of whole arrays.

  A graph of 100000 nodes with 1600000 edges `e` (row 0 the sources, row 1 the targets) and a self-loop at every node:
  the list of sources is the edges' sources followed by 0, 1, …, 99999 (`sources`), and likewise the targets
  (`targets`), 1700000 entries each. A negative node number counts from the end (`wrapped`). The degree of a node is the
  number of list entries that target it (`degree`, a scatter-add of ones), its weight the inverse square root of the
  degree where that is positive and zero elsewhere (`weight`), and the coefficient of list entry `j` is the product of
  the weights of its source and its target (`coeff`). One graph convolution of node features `h` sums, into each node,
  the feature rows of the sources of the entries that target it, each scaled by the entry's coefficient (`gathered`:
  a gather, a product with the coefficient broadcast along the row, a scatter-add into zeros). A layer adds a bias row
  and takes the maximum with zero (`biased`); a head is a matrix product plus a bias row (`head`). The network is
  two convolution layers, each after a product with a 64 × 64 matrix, and two heads (`network`).

  Every function here is the reference program's own chain of host operations, over that program's shape records; the
  two programs compute them on the same arrays, so nothing here is ever opened except the products and the biases.
-/
import proofs.«118799_j7121055776880_1_alg».proof.Proof.Gen.ReferenceIdeal

noncomputable section

namespace Cert.Spec

open Idealize.ShloMosaic Cert.ReferenceIdeal Cert.ReferenceIdeal.Gen

variable {F : FTy → Type} [FloatOps F]

/-- The entries' sources: row 0 of the edge list, then every node once. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The entries' targets: row 1 of the edge list, then every node once. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number below zero counts from the end: 100000 is added to it. -/
def wrapped (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- How many entries target each node. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- A node's weight: the inverse square root of its degree where that is positive, zero elsewhere. -/
def weight (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- An entry's coefficient from the nodes' weights `wt`: the weight of its source times the weight of its target. -/
def coeffOf (wt : (⟨S100000, .f32⟩ : BufTy).Contents (Elt F)) (s d : (⟨S1700000, .i32⟩ : BufTy).Contents (Elt F)) : (⟨S1700000, .f32⟩ : BufTy).Contents (Elt F) :=
  mulf (Host.gather gather_S100000_S1700000x1_S1700000_n_0_n_n_0_1_1 wt (broadcastInDim S1700000x1 ![0] bcast_S1700000_S1700000x1_0 (wrapped s))) (Host.gather gather_S100000_S1700000x1_S1700000_n_0_n_n_0_1_1 wt (broadcastInDim S1700000x1 ![0] bcast_S1700000_S1700000x1_0 (wrapped d)))

/-- An entry's coefficient: the weights are those of the targets' degrees. -/
def coeff (s d : (⟨S1700000, .i32⟩ : BufTy).Contents (Elt F)) : (⟨S1700000, .f32⟩ : BufTy).Contents (Elt F) :=
  coeffOf (weight d) s d

/-- One graph convolution of the node features `h`: into each node, the sum over the entries that target it of the
    source's feature row times the entry's coefficient. -/
def gathered (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapped s))) (broadcastInDim S1700000x64 ![0, 1] bcast_S1700000x1_S1700000x64_0_1 (broadcastInDim S1700000x1 ![0] bcast_S1700000_S1700000x1_0 n)))

/-- A bias row added to every row, then the maximum with zero. -/
def biased (a : (⟨S100000x64, .f32⟩ : BufTy).Contents (Elt F)) (b : (⟨S64, .f32⟩ : BufTy).Contents (Elt F)) : (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The features times a 64 × 64 matrix. -/
def mixed (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w

/-- A head: the features times a 64 × 32 matrix, plus a bias row. -/
def head (x : (⟨S100000x64, .f32⟩ : BufTy).Contents (Elt F)) (w : (⟨S64x32, .f32⟩ : BufTy).Contents (Elt F)) (b : (⟨S32, .f32⟩ : BufTy).Contents (Elt F)) : (⟨S100000x32, .f32⟩ : BufTy).Contents (Elt F) :=
  addf (Host.dotGeneral dot_S100000x64_S64x32_S100000x32_1_0_0_1_n_n none x w) (broadcastInDim S100000x32 ![0, 1] bcast_S1x32_S100000x32_0_1 (broadcastInDim S1x32 ![1] bcast_S32_S1x32_1 b))

/-- One convolution layer on the graph `e`: mix, convolve, add the bias, clamp below at zero. -/
def layer (x : (⟨S100000x64, .f32⟩ : BufTy).Contents (Elt F)) (e : (⟨S2x1600000, .i32⟩ : BufTy).Contents (Elt F))
    (w : (⟨S64x64, .f32⟩ : BufTy).Contents (Elt F)) (b : (⟨S64, .f32⟩ : BufTy).Contents (Elt F)) : (⟨S100000x64, .f32⟩ : BufTy).Contents (Elt F) :=
  biased (gathered (mixed x w) (sources e) (targets e) (coeff (sources e) (targets e))) b

/-- The hidden features both heads read: two layers. -/
def hidden (x : (⟨S100000x64, .f32⟩ : BufTy).Contents (Elt F)) (e : (⟨S2x1600000, .i32⟩ : BufTy).Contents (Elt F))
    (w0 : (⟨S64x64, .f32⟩ : BufTy).Contents (Elt F)) (b0 : (⟨S64, .f32⟩ : BufTy).Contents (Elt F))
    (w1 : (⟨S64x64, .f32⟩ : BufTy).Contents (Elt F)) (b1 : (⟨S64, .f32⟩ : BufTy).Contents (Elt F)) : (⟨S100000x64, .f32⟩ : BufTy).Contents (Elt F) :=
  layer (layer x e w0 b0) e w1 b1

end Cert.Spec

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibHostDotPlain.lean ====
/-
  The host's plain matrix product, read at an entry, over the extended reals.

  For the dimension numbers `DotDims.plain M K N` (an `M × K` left operand, a `K × N` right operand, the left one's
  columns contracted with the right one's rows, no batch axis) entry `(p, q)` of the host's product is
  `Σ_{k < K} l (p, k) * r (k, q)`, whatever the precision and the schedule: over the extended reals a product is
  the exact sum of the exact products, and the contraction index has one coordinate, which runs over `Fin K`.
-/
import proofs.«118799_j7121055776880_1_alg».proof.Proof.LibMatmulPlain

noncomputable section

open scoped BigOperators

namespace Cert.Lib

open Idealize.ShloMosaic Idealize.ShloMosaic.ValueIdx

/-- ENTRY `(p, q)` OF THE HOST'S PLAIN PRODUCT: the sum over `k : Fin K` of `l (p, k) * r (k, q)`. -/
theorem dotGeneral_plain_apply {φ₁ φ₂ : FTy} (M K N : Nat) (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.Entries.lean ====
/-
  The network's pieces, and each kernel body's arithmetic, read at one entry over the extended reals.

  Over the extended reals a change of float format is the identity, a matrix product into the zero matrix and the
  host's matrix product are both the plain sum `Σ_k x (p, k) * w (k, q)`, a bias row added to every row reads
  `b q` at entry `(p, q)`, and the maximum with the zero splat is `max · 0`. So entry `(p, q)` of
    * the features times a matrix is `Σ_k x (p, k) * w (k, q)`                               (`mixed_apply`, `body_product`),
    * a biased and clamped array is `max (a (p, q) + b q) 0`                                (`biased_apply`, `body_bias`),
    * a head is `Σ_k x (p, k) * w (k, q) + b q`                                             (`head_apply`, `body_head`),
  on the host's side over the whole arrays and on a kernel body's side over one block of 10000 rows, the body's bias
  being a 1 × n row. The zero is kept as the word it is printed with on both sides and never evaluated.
-/
import proofs.«118799_j7121055776880_1_alg».proof.Proof.Spec
import proofs.«118799_j7121055776880_1_alg».proof.Proof.LibHostDotPlain
import proofs.«118799_j7121055776880_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec

open Idealize.ShloMosaic Idealize.ShloMosaic.ValueIdx Cert.ReferenceIdeal Cert.ReferenceIdeal.Gen

/-- A scalar splat at an entry is the scalar. -/
theorem splat64_apply (v : FVec Ideal S_ .f32) (p : Fin 100000) (q : Fin 64) :
    broadcastInDim S100000x64 ![] bcast_S_S100000x64 v (ix2 p q) = v ix0 :=
  broadcastInDim_apply (![] : Fin 0 → Fin S100000x64.rank) bcast_S_S100000x64 v (ix2 p q) ix0 (fun a => a.elim0)

/-- A 64-vector laid as a row and repeated down 100000 rows reads its entry `q` at `(p, q)`. -/
theorem row64_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply (![0, 1] : Fin 2 → Fin S100000x64.rank) bcast_S1x64_S100000x64_0_1 _ (ix2 p q) (ix2 (0 : Fin 1) q)
        (fun a => by match a with | ⟨0, _⟩ => rfl | ⟨1, _⟩ => rfl),
      broadcastInDim_apply (![1] : Fin 1 → Fin S1x64.rank) bcast_S64_S1x64_1 b (ix2 (0 : Fin 1) q) (ix1 q)
        (fun a => by match a with | ⟨0, _⟩ => rfl)]

/-- The same for a 32-vector. -/
theorem row32_apply (b : FVec Ideal S32 .f32) (p : Fin 100000) (q : Fin 32) :
    broadcastInDim S100000x32 ![0, 1] bcast_S1x32_S100000x32_0_1 (broadcastInDim S1x32 ![1] bcast_S32_S1x32_1 b) (ix2 p q) = b (ix1 q) := by
  rw [broadcastInDim_apply (![0, 1] : Fin 2 → Fin S100000x32.rank) bcast_S1x32_S100000x32_0_1 _ (ix2 p q) (ix2 (0 : Fin 1) q)
        (fun a => by match a with | ⟨0, _⟩ => rfl | ⟨1, _⟩ => rfl),
      broadcastInDim_apply (![1] : Fin 1 → Fin S1x32.rank) bcast_S32_S1x32_1 b (ix2 (0 : Fin 1) q) (ix1 q)
        (fun a => by match a with | ⟨0, _⟩ => rfl)]

/-- Entry `(p, q)` of the features times a 64 × 64 matrix. -/
theorem mixed_apply (x : FVec Ideal S100000x64 .f32) (w : FVec Ideal S64x64 .f32) (p : Fin 100000) (q : Fin 64) :
    mixed (F := Ideal) x w (ix2 p q) = ∑ k : Fin 64, x (ix2 p k) * w (ix2 k q) :=
  Cert.Lib.dotGeneral_plain_apply 100000 64 64 none _ x w p q

/-- Entry `(p, q)` of a biased and clamped array. -/
theorem biased_apply (a : FVec Ideal S100000x64 .f32) (b : FVec Ideal S64 .f32) (p : Fin 100000) (q : Fin 64) :
    biased (F := Ideal) a b (ix2 p q) = max (a (ix2 p q) + b (ix1 q)) (Ideal.ofBits .f32 0x00000000#32) := by
  unfold biased
  rw [maximumf_apply, addf_apply, row64_apply, splat64_apply]
  rfl

/-- Entry `(p, q)` of a head. -/
theorem head_apply (x : FVec Ideal S100000x64 .f32) (w : FVec Ideal S64x32 .f32) (b : FVec Ideal S32 .f32) (p : Fin 100000) (q : Fin 32) :
    head (F := Ideal) x w b (ix2 p q) = (∑ k : Fin 64, x (ix2 p k) * w (ix2 k q)) + b (ix1 q) := by
  unfold head
  rw [addf_apply, row32_apply]
  exact congrArg (· + b (ix1 q)) (Cert.Lib.dotGeneral_plain_apply 100000 64 32 none _ x w p q)

end Cert.Spec

namespace Cert.KernelIdeal.Body

open Idealize.ShloMosaic Idealize.ShloMosaic.ValueIdx Cert.KernelIdeal Cert.KernelIdeal.Gen

/-- A block of 10000 rows times a 64 × 64 matrix, as a product into the zero block: entry `(p, q)`. -/
theorem product64 (x : FVec Ideal S10000x64 .f32) (w : FVec Ideal S64x64 .f32) (p : Fin 10000) (q : Fin 64) :
    matmul dot_S10000x64_S64x64_S10000x64_1_0_0_1_n_n none (truncf .bf16 x bitsLt_bf16_f32 : FVec Ideal S10000x64 .bf16)
        (truncf .bf16 w bitsLt_bf16_f32 : FVec Ideal S64x64 .bf16) (constant S10000x64 .f32 0x00000000#32) (ix2 p q)
      = ∑ k : Fin 64, x (ix2 p k) * w (ix2 k q) :=
  Cert.Lib.matmul_plain_zero_apply 10000 64 64 none (truncf .bf16 x bitsLt_bf16_f32) (truncf .bf16 w bitsLt_bf16_f32) p q

/-- The same against a 64 × 32 matrix. -/
theorem product32 (x : FVec Ideal S10000x64 .f32) (w : FVec Ideal S64x32 .f32) (p : Fin 10000) (q : Fin 32) :
    matmul dot_S10000x64_S64x32_S10000x32_1_0_0_1_n_n none (truncf .bf16 x bitsLt_bf16_f32 : FVec Ideal S10000x64 .bf16)
        (truncf .bf16 w bitsLt_bf16_f32 : FVec Ideal S64x32 .bf16) (constant S10000x32 .f32 0x00000000#32) (ix2 p q)
      = ∑ k : Fin 64, x (ix2 p k) * w (ix2 k q) :=
  Cert.Lib.matmul_plain_zero_apply 10000 64 32 none (truncf .bf16 x bitsLt_bf16_f32) (truncf .bf16 w bitsLt_bf16_f32) p q

/-- Region 0's body: the block times the matrix. -/
theorem body0 (x : Vec Ideal S10000x64 .f32) (w : Vec Ideal S64x64 .f32) (p : Fin 10000) (q : Fin 64) :
    k0_pay1 x w (ix2 p q) = ∑ k : Fin 64, x (ix2 p k) * w (ix2 k q) := by
  unfold k0_pay1
  exact product64 x w p q

/-- Region 2's body: the same, through a shape cast that changes nothing. -/
theorem body2 (x : Vec Ideal S10000x64 .f32) (w : Vec Ideal S64x64 .f32) (p : Fin 10000) (q : Fin 64) :
    k2_pay1 x w (ix2 p q) = ∑ k : Fin 64, x (ix2 p k) * w (ix2 k q) := by
  unfold k2_pay1
  refine (product64 (shapeCast S10000x64 x shapeCasts_S10000x64_S10000x64) w p q).trans ?_
  refine Finset.sum_congr rfl fun k _ => ?_
  exact congrArg (· * w (ix2 k q)) (congrFun (shapeCast_self x shapeCasts_S10000x64_S10000x64) (ix2 p k))

/-- A bias body: the block plus the 1 × 64 row repeated down the rows, clamped below at zero. -/
theorem bias_clamp (x : FVec Ideal S10000x64 .f32) (b : FVec Ideal S1x64 .f32) (p : Fin 10000) (q : Fin 64) :
    maximumf (addf (shapeCast S10000x64 x shapeCasts_S10000x64_S10000x64)
        (broadcastTo S10000x64 (shapeCast S1x64 b shapeCasts_S1x64_S1x64) broadcasts_S1x64_S10000x64))
        (broadcast S10000x64 (Scalar.ofBits (F := Ideal) .f32 0x00000000#32)) (ix2 p q)
      = max (x (ix2 p q) + b (ix2 (0 : Fin 1) q)) (Ideal.ofBits .f32 0x00000000#32) := by
  rw [maximumf_apply, addf_apply, shapeCast_self, shapeCast_self, broadcastTo_1b_ab_apply]
  rfl

/-- Region 1's body. -/
theorem body1 (x : Vec Ideal S10000x64 .f32) (b : Vec Ideal S1x64 .f32) (p : Fin 10000) (q : Fin 64) :
    k1_pay1 x b (ix2 p q) = max (x (ix2 p q) + b (ix2 (0 : Fin 1) q)) (Ideal.ofBits .f32 0x00000000#32) := by
  unfold k1_pay1
  exact bias_clamp x b p q

/-- Region 3's body. -/
theorem body3 (x : Vec Ideal S10000x64 .f32) (b : Vec Ideal S1x64 .f32) (p : Fin 10000) (q : Fin 64) :
    k3_pay1 x b (ix2 p q) = max (x (ix2 p q) + b (ix2 (0 : Fin 1) q)) (Ideal.ofBits .f32 0x00000000#32) := by
  unfold k3_pay1
  exact bias_clamp x b p q

/-- A head body: the block times the 64 × 32 matrix, plus the 1 × 32 row repeated down the rows. -/
theorem head_block (x : FVec Ideal S10000x64 .f32) (w : FVec Ideal S64x32 .f32) (b : FVec Ideal S1x32 .f32) (p : Fin 10000) (q : Fin 32) :
    addf (matmul dot_S10000x64_S64x32_S10000x32_1_0_0_1_n_n none
          (truncf .bf16 (shapeCast S10000x64 x shapeCasts_S10000x64_S10000x64) bitsLt_bf16_f32 : FVec Ideal S10000x64 .bf16)
          (truncf .bf16 w bitsLt_bf16_f32 : FVec Ideal S64x32 .bf16) (constant S10000x32 .f32 0x00000000#32))
        (broadcastTo S10000x32 (shapeCast S1x32 b shapeCasts_S1x32_S1x32) broadcasts_S1x32_S10000x32) (ix2 p q)
      = (∑ k : Fin 64, x (ix2 p k) * w (ix2 k q)) + b (ix2 (0 : Fin 1) q) := by
  rw [addf_apply, shapeCast_self, shapeCast_self, broadcastTo_1b_ab_apply]
  exact congrArg (· + b (ix2 (0 : Fin 1) q)) (product32 x w p q)

/-- Region 4's body. -/
theorem body4 (x : Vec Ideal S10000x64 .f32) (w : Vec Ideal S64x32 .f32) (b : Vec Ideal S1x32 .f32) (p : Fin 10000) (q : Fin 32) :
    k4_pay1 x w b (ix2 p q) = (∑ k : Fin 64, x (ix2 p k) * w (ix2 k q)) + b (ix2 (0 : Fin 1) q) := by
  unfold k4_pay1
  exact head_block x w b p q

/-- Region 5's body. -/
theorem body5 (x : Vec Ideal S10000x64 .f32) (w : Vec Ideal S64x32 .f32) (b : Vec Ideal S1x32 .f32) (p : Fin 10000) (q : Fin 32) :
    k5_pay1 x w b (ix2 p q) = (∑ k : Fin 64, x (ix2 p k) * w (ix2 k q)) + b (ix2 (0 : Fin 1) q) := by
  unfold k5_pay1
  exact head_block x w b p q

end Cert.KernelIdeal.Body

end
-- ==== Proof.Region0.lean ====
/-
  Region 0: a product of the node features with a 64 × 64 matrix, 10000 rows at a time.

  The grid has ten points. Point `t` reads rows `10000 t … 10000 t + 9999` of the left array and the whole matrix,
  multiplies them into a zero block, and writes the result back as the same rows of the output array. So what point
  `t` writes back is block `t` of ONE array, the whole left array times the matrix: entry `(10000 t + a, b)` of
  the block's product only reads row `10000 t + a` of the left array. The ten blocks tile the output's 100000 rows
  (row `r` is in block `r / 10000`), so after the region the output array IS that product — whatever the arrays
  held when the region was entered.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left array's and the output's block index is `(t, 0)`, the
    matrix's `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array's block at point `t` is its rows `10000 t …`. -/
theorem rows (c : Dev nD) (t : Fin cfg0.N) (a : Fin 10000) (k : Fin 64) (r : Fin 100000) (hr : r.val = t.val * 10000 + a.val) :
    (iblk0 V c 0 t : Vec Ideal S10000x64 .f32) (ix2 a k) = (V c main_arg0 : S100000x64.Idx → Elt Ideal .f32) (ix2 r k) := by
  obtain ⟨e0, e1, -, -, -, -⟩ := idx_facts t
  unfold iblk0
  rw [View.read_apply]
  show V c main_arg0 _ = V c main_arg0 _
  congr 1
  funext ax
  apply Fin.ext
  match ax with
  | ⟨0, _⟩ => show win0_0.index t (0 : Fin 2) * 10000 + 1 * a.val = r.val; omega
  | ⟨1, _⟩ => show win0_0.index t (1 : Fin 2) * 64 + 1 * k.val = k.val; omega

/-- The matrix's block at every point is the whole matrix. -/
theorem whole (c : Dev nD) (t : Fin cfg0.N) (k q : Fin 64) :
    (iblk0 V c 1 t : Vec Ideal S64x64 .f32) (ix2 k q) = (V c main_arg2 : S64x64.Idx → Elt Ideal .f32) (ix2 k q) := by
  obtain ⟨-, -, e2, e3, -, -⟩ := idx_facts t
  unfold iblk0
  rw [View.read_apply]
  show V c main_arg2 _ = V c main_arg2 _
  congr 1
  funext ax
  apply Fin.ext
  match ax with
  | ⟨0, _⟩ => show win0_1.index t (0 : Fin 2) * 64 + 1 * k.val = k.val; omega
  | ⟨1, _⟩ => show win0_1.index t (1 : Fin 2) * 64 + 1 * q.val = q.val; omega

/-- What the output array ends holding: the whole left array times the matrix, as the region finds them. -/
abbrev product (c : Dev nD) : Buf (Elt Ideal) ((c : Thread nD τ).loc main_v30) :=
  Cert.Spec.mixed (F := Ideal) (V c main_arg0) (V c main_arg2)

/-- WHAT POINT `t` WRITES BACK is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨-, -, -, -, e4, e5⟩ := idx_facts t
  have hN : cfg0.N = 10 := N_0
  funext j
  obtain ⟨a, b, rfl⟩ : ∃ (a : Fin 10000) (b : Fin 64), j = ix2 a b := ⟨j 0, j 1, eq_ix2 j⟩
  have hr : t.val * 10000 + a.val < 100000 := by have := t.isLt; omega
  rw [View.read_apply]
  have hemb : ((cfg0.win 2).blk t).view.emb (ix2 a b) = ix2 (⟨t.val * 10000 + a.val, hr⟩ : Fin 100000) b := by
    funext ax
    apply Fin.ext
    match ax with
    | ⟨0, _⟩ => show win0_2.index t (0 : Fin 2) * 10000 + 1 * a.val = t.val * 10000 + a.val; omega
    | ⟨1, _⟩ => show win0_2.index t (1 : Fin 2) * 64 + 1 * b.val = b.val; omega
  rw [hemb]
  show k0_pay1 (iblk0 V c 0 t) (iblk0 V c 1 t) (ix2 a b)
    = Cert.Spec.mixed (F := Ideal) (V c main_arg0) (V c main_arg2) (ix2 (⟨t.val * 10000 + a.val, hr⟩ : Fin 100000) b)
  refine (Body.body0 (iblk0 V c 0 t) (iblk0 V c 1 t) a b).trans ?_
  rw [Cert.Spec.mixed_apply]
  refine Finset.sum_congr rfl fun k _ => ?_
  rw [rows V c t a k ⟨t.val * 10000 + a.val, hr⟩ rfl, whole V c t k b]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every row of the output is in some point's block: row `r` in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]
    omega

/-- THE OUTPUT ARRAY AFTER THE REGION is the whole left array times the matrix. -/
theorem final (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  Region 1: a bias row added to every node's features, clamped below at zero, 10000 rows at a time.

  The grid has ten points. Point `t` reads rows `10000 t … 10000 t + 9999` of the array and the whole 1 × 64 bias row,
  adds the row to each of the block's rows, takes the maximum with zero, and writes the result back as the same rows of
  the output array. Entry `(10000 t + a, q)` of that block only reads entry `(10000 t + a, q)` of the array and entry
  `q` of the row, so what point `t` writes back is block `t` of ONE array: the whole array, biased and clamped. The
  ten blocks tile the output's 100000 rows, so after the region the output array IS that array. The row is a 64-vector
  `b` laid out as 1 × 64; the statement takes that as a hypothesis on the row's entries.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the array's and the output's block index is `(t, 0)`, the bias
    row's `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array's block at point `t` is its rows `10000 t …`. -/
theorem rows (c : Dev nD) (t : Fin cfg1.N) (a : Fin 10000) (k : Fin 64) (r : Fin 100000) (hr : r.val = t.val * 10000 + a.val) :
    (iblk1 V c 0 t : Vec Ideal S10000x64 .f32) (ix2 a k) = (V c main_v43 : S100000x64.Idx → Elt Ideal .f32) (ix2 r k) := by
  obtain ⟨e0, e1, -, -, -, -⟩ := idx_facts t
  unfold iblk1
  rw [View.read_apply]
  show V c main_v43 _ = V c main_v43 _
  congr 1
  funext ax
  apply Fin.ext
  match ax with
  | ⟨0, _⟩ => show win1_0.index t (0 : Fin 2) * 10000 + 1 * a.val = r.val; omega
  | ⟨1, _⟩ => show win1_0.index t (1 : Fin 2) * 64 + 1 * k.val = k.val; omega

/-- The bias row's block at every point is the whole row. -/
theorem whole (c : Dev nD) (t : Fin cfg1.N) (q : Fin 64) :
    (iblk1 V c 1 t : Vec Ideal S1x64 .f32) (ix2 (0 : Fin 1) q) = (V c main_v44 : S1x64.Idx → Elt Ideal .f32) (ix2 (0 : Fin 1) q) := by
  obtain ⟨-, -, e2, e3, -, -⟩ := idx_facts t
  unfold iblk1
  rw [View.read_apply]
  show V c main_v44 _ = V c main_v44 _
  congr 1
  funext ax
  apply Fin.ext
  match ax with
  | ⟨0, _⟩ => show win1_1.index t (0 : Fin 2) * 1 + 1 * (0 : Fin 1).val = (0 : Fin 1).val; omega
  | ⟨1, _⟩ => show win1_1.index t (1 : Fin 2) * 64 + 1 * q.val = q.val; omega

/-- What the output array ends holding: the whole array as the region finds it, biased by `b` and clamped. -/
abbrev clamped (c : Dev nD) (b : FVec Ideal Cert.ReferenceIdeal.S64 .f32) : Buf (Elt Ideal) ((c : Thread nD τ).loc main_v45) :=
  Cert.Spec.biased (F := Ideal) (V c main_v43) b

/-- WHAT POINT `t` WRITES BACK is block `t` of the whole biased and clamped array. -/
theorem flushed_eq (c : Dev nD) (b : FVec Ideal Cert.ReferenceIdeal.S64 .f32)
    (hb : ∀ q : Fin 64, (V c main_v44 : S1x64.Idx → Elt Ideal .f32) (ix2 (0 : Fin 1) q) = b (ix1 q)) (t : Fin cfg1.N) :
    (dat1 V c).flushed 2 t = ((cfg1.win 2).blk t).view.read (Elt Ideal) (clamped V c b) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨-, -, -, -, e4, e5⟩ := idx_facts t
  have hN : cfg1.N = 10 := N_1
  funext j
  obtain ⟨a, q, rfl⟩ : ∃ (a : Fin 10000) (q : Fin 64), j = ix2 a q := ⟨j 0, j 1, eq_ix2 j⟩
  have hr : t.val * 10000 + a.val < 100000 := by have := t.isLt; omega
  rw [View.read_apply]
  have hemb : ((cfg1.win 2).blk t).view.emb (ix2 a q) = ix2 (⟨t.val * 10000 + a.val, hr⟩ : Fin 100000) q := by
    funext ax
    apply Fin.ext
    match ax with
    | ⟨0, _⟩ => show win1_2.index t (0 : Fin 2) * 10000 + 1 * a.val = t.val * 10000 + a.val; omega
    | ⟨1, _⟩ => show win1_2.index t (1 : Fin 2) * 64 + 1 * q.val = q.val; omega
  rw [hemb]
  show k1_pay1 (iblk1 V c 0 t) (iblk1 V c 1 t) (ix2 a q)
    = Cert.Spec.biased (F := Ideal) (V c main_v43) b (ix2 (⟨t.val * 10000 + a.val, hr⟩ : Fin 100000) q)
  refine (Body.body1 (iblk1 V c 0 t) (iblk1 V c 1 t) a q).trans ?_
  rw [Cert.Spec.biased_apply, rows V c t a q ⟨t.val * 10000 + a.val, hr⟩ rfl, whole V c t q, hb q]

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row of the output is in some point's block: row `r` in block `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  refine ⟨⟨(i 0).val / 10000, ht⟩, flush1_2 _, ?_⟩
  rw [mem_blk]
  obtain ⟨-, -, -, -, e4, e5⟩ := idx_facts ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]
    omega

/-- THE OUTPUT ARRAY AFTER THE REGION is the whole array biased by `b` and clamped. -/
theorem final (c : Dev nD) (b : FVec Ideal Cert.ReferenceIdeal.S64 .f32)
    (hb : ∀ q : Fin 64, (V c main_v44 : S1x64.Idx → Elt Ideal .f32) (ix2 (0 : Fin 1) q) = b (ix1 q)) :
    (dat1 V c).arrAt 2 cfg1.N = clamped V c b :=
  (dat1 V c).arrAt_eq_of_cover 2 (clamped V c b) (fun t _ => flushed_eq V c b hb t) cover

end Cert.KernelIdeal.Region1

end
-- ==== Proof.Region2.lean ====
/-
  Region 2: a product of the node features with a 64 × 64 matrix, 10000 rows at a time.

  The grid has ten points. Point `t` reads rows `10000 t … 10000 t + 9999` of the left array and the whole matrix,
  multiplies them into a zero block, and writes the result back as the same rows of the output array. So what point
  `t` writes back is block `t` of ONE array, the whole left array times the matrix: entry `(10000 t + a, b)` of
  the block's product only reads row `10000 t + a` of the left array. The ten blocks tile the output's 100000 rows
  (row `r` is in block `r / 10000`), so after the region the output array IS that product — whatever the arrays
  held when the region was entered.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left array's and the output's block index is `(t, 0)`, the
    matrix's `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left array's block at point `t` is its rows `10000 t …`. -/
theorem rows (c : Dev nD) (t : Fin cfg2.N) (a : Fin 10000) (k : Fin 64) (r : Fin 100000) (hr : r.val = t.val * 10000 + a.val) :
    (iblk2 V c 0 t : Vec Ideal S10000x64 .f32) (ix2 a k) = (V c main_v45 : S100000x64.Idx → Elt Ideal .f32) (ix2 r k) := by
  obtain ⟨e0, e1, -, -, -, -⟩ := idx_facts t
  unfold iblk2
  rw [View.read_apply]
  show V c main_v45 _ = V c main_v45 _
  congr 1
  funext ax
  apply Fin.ext
  match ax with
  | ⟨0, _⟩ => show win2_0.index t (0 : Fin 2) * 10000 + 1 * a.val = r.val; omega
  | ⟨1, _⟩ => show win2_0.index t (1 : Fin 2) * 64 + 1 * k.val = k.val; omega

/-- The matrix's block at every point is the whole matrix. -/
theorem whole (c : Dev nD) (t : Fin cfg2.N) (k q : Fin 64) :
    (iblk2 V c 1 t : Vec Ideal S64x64 .f32) (ix2 k q) = (V c main_arg4 : S64x64.Idx → Elt Ideal .f32) (ix2 k q) := by
  obtain ⟨-, -, e2, e3, -, -⟩ := idx_facts t
  unfold iblk2
  rw [View.read_apply]
  show V c main_arg4 _ = V c main_arg4 _
  congr 1
  funext ax
  apply Fin.ext
  match ax with
  | ⟨0, _⟩ => show win2_1.index t (0 : Fin 2) * 64 + 1 * k.val = k.val; omega
  | ⟨1, _⟩ => show win2_1.index t (1 : Fin 2) * 64 + 1 * q.val = q.val; omega

/-- What the output array ends holding: the whole left array times the matrix, as the region finds them. -/
abbrev product (c : Dev nD) : Buf (Elt Ideal) ((c : Thread nD τ).loc main_v46) :=
  Cert.Spec.mixed (F := Ideal) (V c main_v45) (V c main_arg4)

/-- WHAT POINT `t` WRITES BACK is block `t` of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx_facts t
  have hN : cfg2.N = 10 := N_2
  funext j
  obtain ⟨a, b, rfl⟩ : ∃ (a : Fin 10000) (b : Fin 64), j = ix2 a b := ⟨j 0, j 1, eq_ix2 j⟩
  have hr : t.val * 10000 + a.val < 100000 := by have := t.isLt; omega
  rw [View.read_apply]
  have hemb : ((cfg2.win 2).blk t).view.emb (ix2 a b) = ix2 (⟨t.val * 10000 + a.val, hr⟩ : Fin 100000) b := by
    funext ax
    apply Fin.ext
    match ax with
    | ⟨0, _⟩ => show win2_2.index t (0 : Fin 2) * 10000 + 1 * a.val = t.val * 10000 + a.val; omega
    | ⟨1, _⟩ => show win2_2.index t (1 : Fin 2) * 64 + 1 * b.val = b.val; omega
  rw [hemb]
  show k2_pay1 (iblk2 V c 0 t) (iblk2 V c 1 t) (ix2 a b)
    = Cert.Spec.mixed (F := Ideal) (V c main_v45) (V c main_arg4) (ix2 (⟨t.val * 10000 + a.val, hr⟩ : Fin 100000) b)
  refine (Body.body2 (iblk2 V c 0 t) (iblk2 V c 1 t) a b).trans ?_
  rw [Cert.Spec.mixed_apply]
  refine Finset.sum_congr rfl fun k _ => ?_
  rw [rows V c t a k ⟨t.val * 10000 + a.val, hr⟩ rfl, whole V c t k b]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every row of the output is in some point's block: row `r` in block `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  refine ⟨⟨(i 0).val / 10000, ht⟩, flush2_2 _, ?_⟩
  rw [mem_blk]
  obtain ⟨-, -, -, -, e4, e5⟩ := idx_facts ⟨(i 0).val / 10000, ht⟩
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]
    omega

/-- THE OUTPUT ARRAY AFTER THE REGION is the whole left array times the matrix. -/
theorem final (c : Dev nD) : (dat2 V c).arrAt 2 cfg2.N = product V c :=
  (dat2 V c).arrAt_eq_of_cover 2 (product V c) (fun t _ => flushed_eq V c t) cover

end Cert.KernelIdeal.Region2

end
-- ==== Proof.Region3.lean ====
/-
  Region 3: a bias row added to every node's features, clamped below at zero, 10000 rows at a time.

  The grid has ten points. Point `t` reads rows `10000 t … 10000 t + 9999` of the array and the whole 1 × 64 bias row,
  adds the row to each of the block's rows, takes the maximum with zero, and writes the result back as the same rows of
  the output array. Entry `(10000 t + a, q)` of that block only reads entry `(10000 t + a, q)` of the array and entry
  `q` of the row, so what point `t` writes back is block `t` of ONE array: the whole array, biased and clamped. The
  ten blocks tile the output's 100000 rows, so after the region the output array IS that array. The row is a 64-vector
  `b` laid out as 1 × 64; the statement takes that as a hypothesis on the row's entries.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the array's and the output's block index is `(t, 0)`, the bias
    row's `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array's block at point `t` is its rows `10000 t …`. -/
theorem rows (c : Dev nD) (t : Fin cfg3.N) (a : Fin 10000) (k : Fin 64) (r : Fin 100000) (hr : r.val = t.val * 10000 + a.val) :
    (iblk3 V c 0 t : Vec Ideal S10000x64 .f32) (ix2 a k) = (V c main_v59 : S100000x64.Idx → Elt Ideal .f32) (ix2 r k) := by
  obtain ⟨e0, e1, -, -, -, -⟩ := idx_facts t
  unfold iblk3
  rw [View.read_apply]
  show V c main_v59 _ = V c main_v59 _
  congr 1
  funext ax
  apply Fin.ext
  match ax with
  | ⟨0, _⟩ => show win3_0.index t (0 : Fin 2) * 10000 + 1 * a.val = r.val; omega
  | ⟨1, _⟩ => show win3_0.index t (1 : Fin 2) * 64 + 1 * k.val = k.val; omega

/-- The bias row's block at every point is the whole row. -/
theorem whole (c : Dev nD) (t : Fin cfg3.N) (q : Fin 64) :
    (iblk3 V c 1 t : Vec Ideal S1x64 .f32) (ix2 (0 : Fin 1) q) = (V c main_v60 : S1x64.Idx → Elt Ideal .f32) (ix2 (0 : Fin 1) q) := by
  obtain ⟨-, -, e2, e3, -, -⟩ := idx_facts t
  unfold iblk3
  rw [View.read_apply]
  show V c main_v60 _ = V c main_v60 _
  congr 1
  funext ax
  apply Fin.ext
  match ax with
  | ⟨0, _⟩ => show win3_1.index t (0 : Fin 2) * 1 + 1 * (0 : Fin 1).val = (0 : Fin 1).val; omega
  | ⟨1, _⟩ => show win3_1.index t (1 : Fin 2) * 64 + 1 * q.val = q.val; omega

/-- What the output array ends holding: the whole array as the region finds it, biased by `b` and clamped. -/
abbrev clamped (c : Dev nD) (b : FVec Ideal Cert.ReferenceIdeal.S64 .f32) : Buf (Elt Ideal) ((c : Thread nD τ).loc main_v61) :=
  Cert.Spec.biased (F := Ideal) (V c main_v59) b

/-- WHAT POINT `t` WRITES BACK is block `t` of the whole biased and clamped array. -/
theorem flushed_eq (c : Dev nD) (b : FVec Ideal Cert.ReferenceIdeal.S64 .f32)
    (hb : ∀ q : Fin 64, (V c main_v60 : S1x64.Idx → Elt Ideal .f32) (ix2 (0 : Fin 1) q) = b (ix1 q)) (t : Fin cfg3.N) :
    (dat3 V c).flushed 2 t = ((cfg3.win 2).blk t).view.read (Elt Ideal) (clamped V c b) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨-, -, -, -, e4, e5⟩ := idx_facts t
  have hN : cfg3.N = 10 := N_3
  funext j
  obtain ⟨a, q, rfl⟩ : ∃ (a : Fin 10000) (q : Fin 64), j = ix2 a q := ⟨j 0, j 1, eq_ix2 j⟩
  have hr : t.val * 10000 + a.val < 100000 := by have := t.isLt; omega
  rw [View.read_apply]
  have hemb : ((cfg3.win 2).blk t).view.emb (ix2 a q) = ix2 (⟨t.val * 10000 + a.val, hr⟩ : Fin 100000) q := by
    funext ax
    apply Fin.ext
    match ax with
    | ⟨0, _⟩ => show win3_2.index t (0 : Fin 2) * 10000 + 1 * a.val = t.val * 10000 + a.val; omega
    | ⟨1, _⟩ => show win3_2.index t (1 : Fin 2) * 64 + 1 * q.val = q.val; omega
  rw [hemb]
  show k3_pay1 (iblk3 V c 0 t) (iblk3 V c 1 t) (ix2 a q)
    = Cert.Spec.biased (F := Ideal) (V c main_v59) b (ix2 (⟨t.val * 10000 + a.val, hr⟩ : Fin 100000) q)
  refine (Body.body3 (iblk3 V c 0 t) (iblk3 V c 1 t) a q).trans ?_
  rw [Cert.Spec.biased_apply, rows V c t a q ⟨t.val * 10000 + a.val, hr⟩ rfl, whole V c t q, hb q]

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Every row of the output is in some point's block: row `r` in block `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  refine ⟨⟨(i 0).val / 10000, ht⟩, flush3_2 _, ?_⟩
  rw [mem_blk]
  obtain ⟨-, -, -, -, e4, e5⟩ := idx_facts ⟨(i 0).val / 10000, ht⟩
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]
    omega

/-- THE OUTPUT ARRAY AFTER THE REGION is the whole array biased by `b` and clamped. -/
theorem final (c : Dev nD) (b : FVec Ideal Cert.ReferenceIdeal.S64 .f32)
    (hb : ∀ q : Fin 64, (V c main_v60 : S1x64.Idx → Elt Ideal .f32) (ix2 (0 : Fin 1) q) = b (ix1 q)) :
    (dat3 V c).arrAt 2 cfg3.N = clamped V c b :=
  (dat3 V c).arrAt_eq_of_cover 2 (clamped V c b) (fun t _ => flushed_eq V c b hb t) cover

end Cert.KernelIdeal.Region3

end
-- ==== Proof.Region4.lean ====
/-
  Region 4: a head — the node features times a 64 × 32 matrix plus a bias row — 10000 rows at a time.

  The grid has ten points. Point `t` reads rows `10000 t … 10000 t + 9999` of the features, the whole matrix and the
  whole 1 × 32 bias row, multiplies the block by the matrix into a zero block, adds the row to each row of the product,
  and writes the result back as the same rows of the output array. Entry `(10000 t + a, q)` of that block only reads
  row `10000 t + a` of the features, column `q` of the matrix and entry `q` of the row, so what point `t` writes
  back is block `t` of ONE array: the whole features times the matrix, plus the row. The ten blocks tile the output's
  100000 rows, so after the region the output array IS that array. The row is a 32-vector `b` laid out as 1 × 32;
  the statement takes that as a hypothesis on the row's entries.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the features' and the output's block index is `(t, 0)`, the
    matrix's and the bias row's `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The features' block at point `t` is their rows `10000 t …`. -/
theorem rows (c : Dev nD) (t : Fin cfg4.N) (a : Fin 10000) (k : Fin 64) (r : Fin 100000) (hr : r.val = t.val * 10000 + a.val) :
    (iblk4 V c 0 t : Vec Ideal S10000x64 .f32) (ix2 a k) = (V c main_v61 : S100000x64.Idx → Elt Ideal .f32) (ix2 r k) := by
  obtain ⟨e0, e1, -, -, -, -, -, -⟩ := idx_facts t
  unfold iblk4
  rw [View.read_apply]
  show V c main_v61 _ = V c main_v61 _
  congr 1
  funext ax
  apply Fin.ext
  match ax with
  | ⟨0, _⟩ => show win4_0.index t (0 : Fin 2) * 10000 + 1 * a.val = r.val; omega
  | ⟨1, _⟩ => show win4_0.index t (1 : Fin 2) * 64 + 1 * k.val = k.val; omega

/-- The matrix's block at every point is the whole matrix. -/
theorem whole (c : Dev nD) (t : Fin cfg4.N) (k : Fin 64) (q : Fin 32) :
    (iblk4 V c 1 t : Vec Ideal S64x32 .f32) (ix2 k q) = (V c main_arg6 : S64x32.Idx → Elt Ideal .f32) (ix2 k q) := by
  obtain ⟨-, -, e2, e3, -, -, -, -⟩ := idx_facts t
  unfold iblk4
  rw [View.read_apply]
  show V c main_arg6 _ = V c main_arg6 _
  congr 1
  funext ax
  apply Fin.ext
  match ax with
  | ⟨0, _⟩ => show win4_1.index t (0 : Fin 2) * 64 + 1 * k.val = k.val; omega
  | ⟨1, _⟩ => show win4_1.index t (1 : Fin 2) * 32 + 1 * q.val = q.val; omega

/-- The bias row's block at every point is the whole row. -/
theorem wholeRow (c : Dev nD) (t : Fin cfg4.N) (q : Fin 32) :
    (iblk4 V c 2 t : Vec Ideal S1x32 .f32) (ix2 (0 : Fin 1) q) = (V c main_v62 : S1x32.Idx → Elt Ideal .f32) (ix2 (0 : Fin 1) q) := by
  obtain ⟨-, -, -, -, e4, e5, -, -⟩ := idx_facts t
  unfold iblk4
  rw [View.read_apply]
  show V c main_v62 _ = V c main_v62 _
  congr 1
  funext ax
  apply Fin.ext
  match ax with
  | ⟨0, _⟩ => show win4_2.index t (0 : Fin 2) * 1 + 1 * (0 : Fin 1).val = (0 : Fin 1).val; omega
  | ⟨1, _⟩ => show win4_2.index t (1 : Fin 2) * 32 + 1 * q.val = q.val; omega

/-- What the output array ends holding: the whole features, as the region finds them, times the matrix, plus `b`. -/
abbrev projected (c : Dev nD) (b : FVec Ideal Cert.ReferenceIdeal.S32 .f32) : Buf (Elt Ideal) ((c : Thread nD τ).loc main_v63) :=
  Cert.Spec.head (F := Ideal) (V c main_v61) (V c main_arg6) b

/-- WHAT POINT `t` WRITES BACK is block `t` of the whole head. -/
theorem flushed_eq (c : Dev nD) (b : FVec Ideal Cert.ReferenceIdeal.S32 .f32)
    (hb : ∀ q : Fin 32, (V c main_v62 : S1x32.Idx → Elt Ideal .f32) (ix2 (0 : Fin 1) q) = b (ix1 q)) (t : Fin cfg4.N) :
    (dat4 V c).flushed 3 t = ((cfg4.win 3).blk t).view.read (Elt Ideal) (projected V c b) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x32) hz, View.ld_unit_zero (S := S1x32) hz]
  obtain ⟨-, -, -, -, -, -, e6, e7⟩ := idx_facts t
  have hN : cfg4.N = 10 := N_4
  funext j
  obtain ⟨a, q, rfl⟩ : ∃ (a : Fin 10000) (q : Fin 32), j = ix2 a q := ⟨j 0, j 1, eq_ix2 j⟩
  have hr : t.val * 10000 + a.val < 100000 := by have := t.isLt; omega
  rw [View.read_apply]
  have hemb : ((cfg4.win 3).blk t).view.emb (ix2 a q) = ix2 (⟨t.val * 10000 + a.val, hr⟩ : Fin 100000) q := by
    funext ax
    apply Fin.ext
    match ax with
    | ⟨0, _⟩ => show win4_3.index t (0 : Fin 2) * 10000 + 1 * a.val = t.val * 10000 + a.val; omega
    | ⟨1, _⟩ => show win4_3.index t (1 : Fin 2) * 32 + 1 * q.val = q.val; omega
  rw [hemb]
  show k4_pay1 (iblk4 V c 0 t) (iblk4 V c 1 t) (iblk4 V c 2 t) (ix2 a q)
    = Cert.Spec.head (F := Ideal) (V c main_v61) (V c main_arg6) b (ix2 (⟨t.val * 10000 + a.val, hr⟩ : Fin 100000) q)
  refine (Body.body4 (iblk4 V c 0 t) (iblk4 V c 1 t) (iblk4 V c 2 t) a q).trans ?_
  rw [Cert.Spec.head_apply, wholeRow V c t q, hb q]
  refine congrArg (· + b (ix1 q)) ?_
  refine Finset.sum_congr rfl fun k _ => ?_
  rw [rows V c t a k ⟨t.val * 10000 + a.val, hr⟩ rfl, whole V c t k q]

/-- An index of the output array is in point `t`'s block iff each coordinate is in the block's range on its axis. -/
theorem mem_blk (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v63).slice (win4_3.rect t)).set ↔ _
  rw [View.set_slice_whole, Rect.mem_set_unit]
  exact Iff.rfl

/-- Every row of the output is in some point's block: row `r` in block `r / 10000`. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 10 := N_4
  have ht : (i 0).val / 10000 < cfg4.N := by rw [hN]; omega
  refine ⟨⟨(i 0).val / 10000, ht⟩, flush4_3 _, ?_⟩
  rw [mem_blk]
  obtain ⟨-, -, -, -, -, -, e6, e7⟩ := idx_facts ⟨(i 0).val / 10000, ht⟩
  intro a
  match a with
  | ⟨0, _⟩ =>
    show win4_3.index ⟨(i 0).val / 10000, ht⟩ (0 : Fin 2) * 10000 ≤ (i 0).val ∧ (i 0).val < win4_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win4_3.index ⟨(i 0).val / 10000, ht⟩ (1 : Fin 2) * 32 ≤ (i 1).val ∧ (i 1).val < win4_3.index ⟨(i 0).val / 10000, ht⟩ (1 : Fin 2) * 32 + 32
    rw [e7]
    omega

/-- THE OUTPUT ARRAY AFTER THE REGION is the whole features times the matrix, plus `b`. -/
theorem final (c : Dev nD) (b : FVec Ideal Cert.ReferenceIdeal.S32 .f32)
    (hb : ∀ q : Fin 32, (V c main_v62 : S1x32.Idx → Elt Ideal .f32) (ix2 (0 : Fin 1) q) = b (ix1 q)) :
    (dat4 V c).arrAt 3 cfg4.N = projected V c b :=
  (dat4 V c).arrAt_eq_of_cover 3 (projected V c b) (fun t _ => flushed_eq V c b hb t) cover

end Cert.KernelIdeal.Region4

end
-- ==== Proof.Region5.lean ====
/-
  Region 5: a head — the node features times a 64 × 32 matrix plus a bias row — 10000 rows at a time.

  The grid has ten points. Point `t` reads rows `10000 t … 10000 t + 9999` of the features, the whole matrix and the
  whole 1 × 32 bias row, multiplies the block by the matrix into a zero block, adds the row to each row of the product,
  and writes the result back as the same rows of the output array. Entry `(10000 t + a, q)` of that block only reads
  row `10000 t + a` of the features, column `q` of the matrix and entry `q` of the row, so what point `t` writes
  back is block `t` of ONE array: the whole features times the matrix, plus the row. The ten blocks tile the output's
  100000 rows, so after the region the output array IS that array. The row is a 32-vector `b` laid out as 1 × 32;
  the statement takes that as a hypothesis on the row's entries.
-/
import proofs.«118799_j7121055776880_1_alg».proof.Proof.Gen.KernelIdeal.Frame
import proofs.«118799_j7121055776880_1_alg».proof.Proof.Entries

set_option maxRecDepth 16384

noncomputable section

open scoped BigOperators

namespace Cert.KernelIdeal.Region5

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the features' and the output's block index is `(t, 0)`, the
    matrix's and the bias row's `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The features' block at point `t` is their rows `10000 t …`. -/
theorem rows (c : Dev nD) (t : Fin cfg5.N) (a : Fin 10000) (k : Fin 64) (r : Fin 100000) (hr : r.val = t.val * 10000 + a.val) :
    (iblk5 V c 0 t : Vec Ideal S10000x64 .f32) (ix2 a k) = (V c main_v61 : S100000x64.Idx → Elt Ideal .f32) (ix2 r k) := by
  obtain ⟨e0, e1, -, -, -, -, -, -⟩ := idx_facts t
  unfold iblk5
  rw [View.read_apply]
  show V c main_v61 _ = V c main_v61 _
  congr 1
  funext ax
  apply Fin.ext
  match ax with
  | ⟨0, _⟩ => show win5_0.index t (0 : Fin 2) * 10000 + 1 * a.val = r.val; omega
  | ⟨1, _⟩ => show win5_0.index t (1 : Fin 2) * 64 + 1 * k.val = k.val; omega

/-- The matrix's block at every point is the whole matrix. -/
theorem whole (c : Dev nD) (t : Fin cfg5.N) (k : Fin 64) (q : Fin 32) :
    (iblk5 V c 1 t : Vec Ideal S64x32 .f32) (ix2 k q) = (V c main_arg8 : S64x32.Idx → Elt Ideal .f32) (ix2 k q) := by
  obtain ⟨-, -, e2, e3, -, -, -, -⟩ := idx_facts t
  unfold iblk5
  rw [View.read_apply]
  show V c main_arg8 _ = V c main_arg8 _
  congr 1
  funext ax
  apply Fin.ext
  match ax with
  | ⟨0, _⟩ => show win5_1.index t (0 : Fin 2) * 64 + 1 * k.val = k.val; omega
  | ⟨1, _⟩ => show win5_1.index t (1 : Fin 2) * 32 + 1 * q.val = q.val; omega

/-- The bias row's block at every point is the whole row. -/
theorem wholeRow (c : Dev nD) (t : Fin cfg5.N) (q : Fin 32) :
    (iblk5 V c 2 t : Vec Ideal S1x32 .f32) (ix2 (0 : Fin 1) q) = (V c main_v64 : S1x32.Idx → Elt Ideal .f32) (ix2 (0 : Fin 1) q) := by
  obtain ⟨-, -, -, -, e4, e5, -, -⟩ := idx_facts t
  unfold iblk5
  rw [View.read_apply]
  show V c main_v64 _ = V c main_v64 _
  congr 1
  funext ax
  apply Fin.ext
  match ax with
  | ⟨0, _⟩ => show win5_2.index t (0 : Fin 2) * 1 + 1 * (0 : Fin 1).val = (0 : Fin 1).val; omega
  | ⟨1, _⟩ => show win5_2.index t (1 : Fin 2) * 32 + 1 * q.val = q.val; omega

/-- What the output array ends holding: the whole features, as the region finds them, times the matrix, plus `b`. -/
abbrev projected (c : Dev nD) (b : FVec Ideal Cert.ReferenceIdeal.S32 .f32) : Buf (Elt Ideal) ((c : Thread nD τ).loc main_v65) :=
  Cert.Spec.head (F := Ideal) (V c main_v61) (V c main_arg8) b

/-- WHAT POINT `t` WRITES BACK is block `t` of the whole head. -/
theorem flushed_eq (c : Dev nD) (b : FVec Ideal Cert.ReferenceIdeal.S32 .f32)
    (hb : ∀ q : Fin 32, (V c main_v64 : S1x32.Idx → Elt Ideal .f32) (ix2 (0 : Fin 1) q) = b (ix1 q)) (t : Fin cfg5.N) :
    (dat5 V c).flushed 3 t = ((cfg5.win 3).blk t).view.read (Elt Ideal) (projected V c b) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x32) hz, View.ld_unit_zero (S := S1x32) hz]
  obtain ⟨-, -, -, -, -, -, e6, e7⟩ := idx_facts t
  have hN : cfg5.N = 10 := N_5
  funext j
  obtain ⟨a, q, rfl⟩ : ∃ (a : Fin 10000) (q : Fin 32), j = ix2 a q := ⟨j 0, j 1, eq_ix2 j⟩
  have hr : t.val * 10000 + a.val < 100000 := by have := t.isLt; omega
  rw [View.read_apply]
  have hemb : ((cfg5.win 3).blk t).view.emb (ix2 a q) = ix2 (⟨t.val * 10000 + a.val, hr⟩ : Fin 100000) q := by
    funext ax
    apply Fin.ext
    match ax with
    | ⟨0, _⟩ => show win5_3.index t (0 : Fin 2) * 10000 + 1 * a.val = t.val * 10000 + a.val; omega
    | ⟨1, _⟩ => show win5_3.index t (1 : Fin 2) * 32 + 1 * q.val = q.val; omega
  rw [hemb]
  show k5_pay1 (iblk5 V c 0 t) (iblk5 V c 1 t) (iblk5 V c 2 t) (ix2 a q)
    = Cert.Spec.head (F := Ideal) (V c main_v61) (V c main_arg8) b (ix2 (⟨t.val * 10000 + a.val, hr⟩ : Fin 100000) q)
  refine (Body.body5 (iblk5 V c 0 t) (iblk5 V c 1 t) (iblk5 V c 2 t) a q).trans ?_
  rw [Cert.Spec.head_apply, wholeRow V c t q, hb q]
  refine congrArg (· + b (ix1 q)) ?_
  refine Finset.sum_congr rfl fun k _ => ?_
  rw [rows V c t a k ⟨t.val * 10000 + a.val, hr⟩ rfl, whole V c t k q]

/-- An index of the output array is in point `t`'s block iff each coordinate is in the block's range on its axis. -/
theorem mem_blk (t : Fin cfg5.N) (i : S100000x32.Idx) :
    i ∈ ((cfg5.win 3).blk t).view.set ↔ ∀ a : Fin 2, win5_3.index t a * S10000x32.size a ≤ (i a).val ∧ (i a).val < win5_3.index t a * S10000x32.size a + S10000x32.size a := by
  show i ∈ ((View.whole main_v65).slice (win5_3.rect t)).set ↔ _
  rw [View.set_slice_whole, Rect.mem_set_unit]
  exact Iff.rfl

/-- Every row of the output is in some point's block: row `r` in block `r / 10000`. -/
theorem cover (i : S100000x32.Idx) : ∃ t : Fin cfg5.N, (cfg5.win 3).flush t = true ∧ i ∈ ((cfg5.win 3).blk t).view.set := by
  have hi0 : (i 0).val < 100000 := (i 0).isLt
  have hi1 : (i 1).val < 32 := (i 1).isLt
  have hN : cfg5.N = 10 := N_5
  have ht : (i 0).val / 10000 < cfg5.N := by rw [hN]; omega
  refine ⟨⟨(i 0).val / 10000, ht⟩, flush5_3 _, ?_⟩
  rw [mem_blk]
  obtain ⟨-, -, -, -, -, -, e6, e7⟩ := idx_facts ⟨(i 0).val / 10000, ht⟩
  intro a
  match a with
  | ⟨0, _⟩ =>
    show win5_3.index ⟨(i 0).val / 10000, ht⟩ (0 : Fin 2) * 10000 ≤ (i 0).val ∧ (i 0).val < win5_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win5_3.index ⟨(i 0).val / 10000, ht⟩ (1 : Fin 2) * 32 ≤ (i 1).val ∧ (i 1).val < win5_3.index ⟨(i 0).val / 10000, ht⟩ (1 : Fin 2) * 32 + 32
    rw [e7]
    omega

/-- THE OUTPUT ARRAY AFTER THE REGION is the whole features times the matrix, plus `b`. -/
theorem final (c : Dev nD) (b : FVec Ideal Cert.ReferenceIdeal.S32 .f32)
    (hb : ∀ q : Fin 32, (V c main_v64 : S1x32.Idx → Elt Ideal .f32) (ix2 (0 : Fin 1) q) = b (ix1 q)) :
    (dat5 V c).arrAt 3 cfg5.N = projected V c b :=
  (dat5 V c).arrAt_eq_of_cover 3 (projected V c b) (fun t _ => flushed_eq V c b hb t) cover

end Cert.KernelIdeal.Region5

end
-- ==== Proof.Chain.lean ====
/-
  The kernel program's boundaries, read back to the arguments.

  The program's buffer contents are followed boundary by boundary (the names `W0 … W13` of the frame run). A host
  stretch leaves in each buffer it writes its operations' value of the buffers before it, and every other buffer as it
  was; a region leaves its output array at what its blocks wrote (the six region statements: a product, a biased and
  clamped array, a head) and every other buffer as it was. Walking from the launch memory `m` forward:

    * before the first region the lists of sources and targets and the entries' coefficients are the specification's
      functions of the edge list;
    * after region 0 its output is the features times `W0`; the stretch after it convolves that over the graph;
      region 1 adds `b0` and clamps; region 2 multiplies by `W1`; the next stretch convolves again; region 3 adds
      `b1` and clamps: the hidden features;
    * regions 4 and 5 are the two heads of the hidden features, each with its own matrix and bias.

  The sources, targets and coefficients are computed once and stay in their buffers through every later segment, and no
  segment writes an argument. The host stretches are the specification's own chains, so they are never opened: each
  stretch is one equation between a buffer after it and a named function of the buffers before it.
-/
import proofs.«118799_j7121055776880_1_alg».proof.Proof.Gen.KernelIdeal.Frame
import proofs.«118799_j7121055776880_1_alg».proof.Proof.Spec
import proofs.«118799_j7121055776880_1_alg».proof.Proof.Region0
import proofs.«118799_j7121055776880_1_alg».proof.Proof.Region1
import proofs.«118799_j7121055776880_1_alg».proof.Proof.Region2
import proofs.«118799_j7121055776880_1_alg».proof.Proof.Region3
import proofs.«118799_j7121055776880_1_alg».proof.Proof.Region4
import proofs.«118799_j7121055776880_1_alg».proof.Proof.Region5
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.SL.Sem Idealize.ShloMosaic.ValueIdx Idealize.ShloMosaic.StableHlo
open Idealize.ShloMosaic.Tactic
open Idealize.ShloMosaic.Pipeline (Dat)
open Cert.KernelIdeal Cert.KernelIdeal.Gen

variable (m : (ℓ : Loc nD τ sig) → Buf (Elt Ideal) ℓ) (ρ : Dev nD → PrngReg) (c : Dev nD)

/-- A host stretch does not write the buffer: none of its operations has it as its result. -/
macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first region: the graph's lists, and the arguments -/

/-- A buffer none of the first forty host operations writes holds its launch contents when region 0 is entered. -/
theorem launch3 (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = m ((c : Thread nD τ).loc b) :=
  h2.trans (h1.trans (h0.trans rfl))

theorem arg0_3 : W3 m ρ c (Proc.devRef .tc main_arg0) = m ((c : Thread nD τ).loc main_arg0) :=
  launch3 m ρ c main_arg0 (by untouched hostOps0) (by untouched hostOps0_1) (by untouched hostOps0_2)
theorem arg2_3 : W3 m ρ c (Proc.devRef .tc main_arg2) = m ((c : Thread nD τ).loc main_arg2) :=
  launch3 m ρ c main_arg2 (by untouched hostOps0) (by untouched hostOps0_1) (by untouched hostOps0_2)
theorem arg3_3 : W3 m ρ c (Proc.devRef .tc main_arg3) = m ((c : Thread nD τ).loc main_arg3) :=
  launch3 m ρ c main_arg3 (by untouched hostOps0) (by untouched hostOps0_1) (by untouched hostOps0_2)
theorem arg4_3 : W3 m ρ c (Proc.devRef .tc main_arg4) = m ((c : Thread nD τ).loc main_arg4) :=
  launch3 m ρ c main_arg4 (by untouched hostOps0) (by untouched hostOps0_1) (by untouched hostOps0_2)
theorem arg5_3 : W3 m ρ c (Proc.devRef .tc main_arg5) = m ((c : Thread nD τ).loc main_arg5) :=
  launch3 m ρ c main_arg5 (by untouched hostOps0) (by untouched hostOps0_1) (by untouched hostOps0_2)
theorem arg6_3 : W3 m ρ c (Proc.devRef .tc main_arg6) = m ((c : Thread nD τ).loc main_arg6) :=
  launch3 m ρ c main_arg6 (by untouched hostOps0) (by untouched hostOps0_1) (by untouched hostOps0_2)
theorem arg7_3 : W3 m ρ c (Proc.devRef .tc main_arg7) = m ((c : Thread nD τ).loc main_arg7) :=
  launch3 m ρ c main_arg7 (by untouched hostOps0) (by untouched hostOps0_1) (by untouched hostOps0_2)
theorem arg8_3 : W3 m ρ c (Proc.devRef .tc main_arg8) = m ((c : Thread nD τ).loc main_arg8) :=
  launch3 m ρ c main_arg8 (by untouched hostOps0) (by untouched hostOps0_1) (by untouched hostOps0_2)
theorem arg9_3 : W3 m ρ c (Proc.devRef .tc main_arg9) = m ((c : Thread nD τ).loc main_arg9) :=
  launch3 m ρ c main_arg9 (by untouched hostOps0) (by untouched hostOps0_1) (by untouched hostOps0_2)

/-- The entries' sources, as the first host operations leave them. -/
theorem sources1 : W1 m ρ c (Proc.devRef .tc main_v3) = Cert.Spec.sources (F := Ideal) (m ((c : Thread nD τ).loc main_arg1)) := by
  show StableHlo.after hostOps0 (W0 m ρ c) (Proc.devRef .tc main_v3) = _
  simp only [hostOps0]
  after_results
  rfl

/-- The entries' targets. -/
theorem targets1 : W1 m ρ c (Proc.devRef .tc main_v6) = Cert.Spec.targets (F := Ideal) (m ((c : Thread nD τ).loc main_arg1)) := by
  show StableHlo.after hostOps0 (W0 m ρ c) (Proc.devRef .tc main_v6) = _
  simp only [hostOps0]
  after_results
  rfl

theorem sources3 : W3 m ρ c (Proc.devRef .tc main_v3) = Cert.Spec.sources (F := Ideal) (m ((c : Thread nD τ).loc main_arg1)) :=
  (show W3 m ρ c (Proc.devRef .tc main_v3) = W2 m ρ c (Proc.devRef .tc main_v3) from by untouched hostOps0_2).trans
    ((show W2 m ρ c (Proc.devRef .tc main_v3) = W1 m ρ c (Proc.devRef .tc main_v3) from by untouched hostOps0_1).trans (sources1 m ρ c))

theorem targets3 : W3 m ρ c (Proc.devRef .tc main_v6) = Cert.Spec.targets (F := Ideal) (m ((c : Thread nD τ).loc main_arg1)) :=
  (show W3 m ρ c (Proc.devRef .tc main_v6) = W2 m ρ c (Proc.devRef .tc main_v6) from by untouched hostOps0_2).trans
    ((show W2 m ρ c (Proc.devRef .tc main_v6) = W1 m ρ c (Proc.devRef .tc main_v6) from by untouched hostOps0_1).trans (targets1 m ρ c))

/-- After the first stretch: which nodes have a positive degree, … -/
theorem positive1 : W1 m ρ c (Proc.devRef .tc main_v12)
    = cmpf (F := Ideal) .ogt (Cert.Spec.degree (F := Ideal) (Cert.Spec.targets (F := Ideal) (m ((c : Thread nD τ).loc main_arg1))))
        (broadcastInDim S100000 ![] bcast_S_S100000 (constant S_ .f32 0x00000000#32)) := by
  show StableHlo.after hostOps0 (W0 m ρ c) (Proc.devRef .tc main_v12) = _
  simp only [hostOps0]
  after_results
  rfl

/-- … the inverse square roots of the degrees, … -/
theorem inverse1 : W1 m ρ c (Proc.devRef .tc main_v13)
    = (Host.rsqrt (F := Ideal) (φ := .f32) (Cert.Spec.degree (F := Ideal) (Cert.Spec.targets (F := Ideal) (m ((c : Thread nD τ).loc main_arg1)))) : (⟨S100000, .f32⟩ : BufTy).Contents (Elt Ideal)) := by
  show StableHlo.after hostOps0 (W0 m ρ c) (Proc.devRef .tc main_v13) = _
  simp only [hostOps0]
  after_results
  rfl

/-- … and the zero the select falls back to. -/
theorem zero1 : W1 m ρ c (Proc.devRef .tc main_cst_2) = constant (F := Ideal) S_ .f32 0x00000000#32 := by
  show StableHlo.after hostOps0 (W0 m ρ c) (Proc.devRef .tc main_cst_2) = _
  simp only [hostOps0]
  after_results

/-- The nodes' weights: the select of the three. The three operations of the select's own stretch are evaluated
    as they stand — the comparison, the inverse square roots and the zero are read from their buffers, the zero is
    passed through an identity conversion and splat, and the select writes the weights' buffer. -/
theorem weight2 : W2 m ρ c (Proc.devRef .tc main_v14) = Cert.Spec.weight (F := Ideal) (Cert.Spec.targets (F := Ideal) (m ((c : Thread nD τ).loc main_arg1))) := by
  have e : W2 m ρ c (Proc.devRef .tc main_v14)
      = select (W1 m ρ c (Proc.devRef .tc main_v12)) (W1 m ρ c (Proc.devRef .tc main_v13))
          (broadcastInDim S100000 ![] bcast_S_S100000 (id (W1 m ρ c (Proc.devRef .tc main_cst_2)))) := by
    show StableHlo.after hostOps0_1 (W1 m ρ c) (Proc.devRef .tc main_v14) = _
    sl_kernel_rfl
  rw [e, positive1, inverse1, zero1]
  rfl

set_option maxHeartbeats 2000000 in
/-- The entries' coefficients after the third stretch, of the weights and the two lists as the stretch finds them. -/
theorem coeffOf3 : W3 m ρ c (Proc.devRef .tc main_v29)
    = Cert.Spec.coeffOf (F := Ideal) (W2 m ρ c (Proc.devRef .tc main_v14)) (W2 m ρ c (Proc.devRef .tc main_v3)) (W2 m ρ c (Proc.devRef .tc main_v6)) := by
  show StableHlo.after hostOps0_2 (W2 m ρ c) (Proc.devRef .tc main_v29) = _
  simp only [hostOps0_2]
  after_results_simp
  rfl

/-- The entries' coefficients, of the edge list. -/
theorem coeff3 : W3 m ρ c (Proc.devRef .tc main_v29)
    = Cert.Spec.coeff (F := Ideal) (Cert.Spec.sources (F := Ideal) (m ((c : Thread nD τ).loc main_arg1))) (Cert.Spec.targets (F := Ideal) (m ((c : Thread nD τ).loc main_arg1))) := by
  rw [coeffOf3, weight2,
    show W2 m ρ c (Proc.devRef .tc main_v3) = W1 m ρ c (Proc.devRef .tc main_v3) from by untouched hostOps0_1, sources1,
    show W2 m ρ c (Proc.devRef .tc main_v6) = W1 m ρ c (Proc.devRef .tc main_v6) from by untouched hostOps0_1, targets1]
  rfl

/-! ## Buffers that later segments leave alone -/

/-- A buffer that region 0, the stretch after it, and regions 1 and 2 leave alone. -/
theorem to7 (b : Ref sig .tc) (h4 : ∀ w, Pipeline.arrRef spec0 w ≠ b)
    (h5 : W5 m ρ c (Proc.devRef .tc b) = W4 m ρ c (Proc.devRef .tc b))
    (h6 : ∀ w, Pipeline.arrRef spec1 w ≠ b) (h7 : ∀ w, Pipeline.arrRef spec2 w ≠ b) :
    W7 m ρ c (Proc.devRef .tc b) = W3 m ρ c (Proc.devRef .tc b) :=
  (W7_of_ne m ρ c b h7).trans ((W6_of_ne m ρ c b h6).trans (h5.trans (W4_of_ne m ρ c b h4)))

/-- … and the second convolution's stretch and region 3. -/
theorem to9 (b : Ref sig .tc) (h7 : W7 m ρ c (Proc.devRef .tc b) = W3 m ρ c (Proc.devRef .tc b))
    (h8 : W8 m ρ c (Proc.devRef .tc b) = W7 m ρ c (Proc.devRef .tc b)) (h9 : ∀ w, Pipeline.arrRef spec3 w ≠ b) :
    W9 m ρ c (Proc.devRef .tc b) = W3 m ρ c (Proc.devRef .tc b) :=
  (W9_of_ne m ρ c b h9).trans (h8.trans h7)

/-- … and the first head's stretch and region 4. -/
theorem to11 (b : Ref sig .tc) (h9 : W9 m ρ c (Proc.devRef .tc b) = W3 m ρ c (Proc.devRef .tc b))
    (h10 : W10 m ρ c (Proc.devRef .tc b) = W9 m ρ c (Proc.devRef .tc b)) (h11 : ∀ w, Pipeline.arrRef spec4 w ≠ b) :
    W11 m ρ c (Proc.devRef .tc b) = W3 m ρ c (Proc.devRef .tc b) :=
  (W11_of_ne m ρ c b h11).trans (h10.trans h9)

theorem sources7 : W7 m ρ c (Proc.devRef .tc main_v3) = (Cert.Spec.sources (F := Ideal) (m ((c : Thread nD τ).loc main_arg1))) :=
  (to7 m ρ c main_v3 (by decide) (by untouched hostOps1) (by decide) (by decide)).trans (sources3 m ρ c)
theorem targets7 : W7 m ρ c (Proc.devRef .tc main_v6) = (Cert.Spec.targets (F := Ideal) (m ((c : Thread nD τ).loc main_arg1))) :=
  (to7 m ρ c main_v6 (by decide) (by untouched hostOps1) (by decide) (by decide)).trans (targets3 m ρ c)
theorem coeff7 : W7 m ρ c (Proc.devRef .tc main_v29) = Cert.Spec.coeff (F := Ideal) (Cert.Spec.sources (F := Ideal) (m ((c : Thread nD τ).loc main_arg1))) (Cert.Spec.targets (F := Ideal) (m ((c : Thread nD τ).loc main_arg1))) :=
  (to7 m ρ c main_v29 (by decide) (by untouched hostOps1) (by decide) (by decide)).trans (coeff3 m ρ c)
theorem arg5_7 : W7 m ρ c (Proc.devRef .tc main_arg5) = m ((c : Thread nD τ).loc main_arg5) :=
  (to7 m ρ c main_arg5 (by decide) (by untouched hostOps1) (by decide) (by decide)).trans (arg5_3 m ρ c)

theorem arg4_6 : W6 m ρ c (Proc.devRef .tc main_arg4) = m ((c : Thread nD τ).loc main_arg4) :=
  (W6_of_ne m ρ c main_arg4 (by decide)).trans
    ((show W5 m ρ c (Proc.devRef .tc main_arg4) = W4 m ρ c (Proc.devRef .tc main_arg4) from by untouched hostOps1).trans
      ((W4_of_ne m ρ c main_arg4 (by decide)).trans (arg4_3 m ρ c)))

theorem arg6_9 : W9 m ρ c (Proc.devRef .tc main_arg6) = m ((c : Thread nD τ).loc main_arg6) :=
  (to9 m ρ c main_arg6 (to7 m ρ c main_arg6 (by decide) (by untouched hostOps1) (by decide) (by decide))
    (by untouched hostOps3) (by decide)).trans (arg6_3 m ρ c)
theorem arg7_9 : W9 m ρ c (Proc.devRef .tc main_arg7) = m ((c : Thread nD τ).loc main_arg7) :=
  (to9 m ρ c main_arg7 (to7 m ρ c main_arg7 (by decide) (by untouched hostOps1) (by decide) (by decide))
    (by untouched hostOps3) (by decide)).trans (arg7_3 m ρ c)
theorem arg8_11 : W11 m ρ c (Proc.devRef .tc main_arg8) = m ((c : Thread nD τ).loc main_arg8) :=
  (to11 m ρ c main_arg8 (to9 m ρ c main_arg8 (to7 m ρ c main_arg8 (by decide) (by untouched hostOps1) (by decide) (by decide))
    (by untouched hostOps3) (by decide)) (by untouched hostOps4) (by decide)).trans (arg8_3 m ρ c)
theorem arg9_11 : W11 m ρ c (Proc.devRef .tc main_arg9) = m ((c : Thread nD τ).loc main_arg9) :=
  (to11 m ρ c main_arg9 (to9 m ρ c main_arg9 (to7 m ρ c main_arg9 (by decide) (by untouched hostOps1) (by decide) (by decide))
    (by untouched hostOps3) (by decide)) (by untouched hostOps4) (by decide)).trans (arg9_3 m ρ c)

/-! ## The first layer -/

/-- Region 0's output: the features times `W0`. -/
theorem mixed4 : W4 m ρ c (Proc.devRef .tc main_v30) = Cert.Spec.mixed (F := Ideal) (m ((c : Thread nD τ).loc main_arg0)) (m ((c : Thread nD τ).loc main_arg2)) := by
  refine (W4_arr m ρ c 2).trans ((Region0.final (V3 m ρ) c).trans ?_)
  show Cert.Spec.mixed (F := Ideal) (W3 m ρ c (Proc.devRef .tc main_arg0)) (W3 m ρ c (Proc.devRef .tc main_arg2)) = _
  rw [arg0_3, arg2_3]

/-- The stretch after region 0 convolves its output over the graph. -/
theorem gathered5 : W5 m ρ c (Proc.devRef .tc main_v43)
    = Cert.Spec.gathered (F := Ideal) (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  simp only [hostOps1]
  after_results
  rfl

/-- … and lays `b0` out as a 1 × 64 row. -/
theorem row5 (q : Fin 64) : (W5 m ρ c (Proc.devRef .tc main_v44) : S1x64.Idx → Elt Ideal .f32) (ix2 (0 : Fin 1) q)
    = (m ((c : Thread nD τ).loc main_arg3) : S64.Idx → Elt Ideal .f32) (ix1 q) := by
  have e : W5 m ρ c (Proc.devRef .tc main_v44) = shapeCast S1x64 (W4 m ρ c (Proc.devRef .tc main_arg3)) shapeCasts_S64_S1x64 := by
    show StableHlo.after hostOps1 (W4 m ρ c) (Proc.devRef .tc main_v44) = _
    simp only [hostOps1]
    after_results
    rfl
  rw [e, W4_of_ne m ρ c main_arg3 (by decide), arg3_3]
  exact shapeCast_a_1a_apply _ _ 0 q

/-- Region 1's output: the first layer. -/
theorem layer6 : W6 m ρ c (Proc.devRef .tc main_v45) = (Cert.Spec.layer (F := Ideal) (m ((c : Thread nD τ).loc main_arg0)) (m ((c : Thread nD τ).loc main_arg1)) (m ((c : Thread nD τ).loc main_arg2)) (m ((c : Thread nD τ).loc main_arg3))) := by
  refine (W6_arr m ρ c 2).trans ((Region1.final (V5 m ρ) c (m ((c : Thread nD τ).loc main_arg3)) (row5 m ρ c)).trans ?_)
  show Cert.Spec.biased (F := Ideal) (W5 m ρ c (Proc.devRef .tc main_v43)) (m ((c : Thread nD τ).loc main_arg3)) = _
  rw [gathered5, mixed4, W4_of_ne m ρ c main_v3 (by decide), W4_of_ne m ρ c main_v6 (by decide), W4_of_ne m ρ c main_v29 (by decide),
    sources3, targets3, coeff3]
  rfl

/-! ## The second layer -/

/-- Region 2's output: the first layer times `W1`. -/
theorem mixed7 : W7 m ρ c (Proc.devRef .tc main_v46) = Cert.Spec.mixed (F := Ideal) (Cert.Spec.layer (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Region2.final (V6 m ρ) c).trans ?_)
  show Cert.Spec.mixed (F := Ideal) (W6 m ρ c (Proc.devRef .tc main_v45)) (W6 m ρ c (Proc.devRef .tc main_arg4)) = _
  rw [layer6, arg4_6]

/-- The stretch after region 2 convolves its output over the graph. -/
theorem gathered8 : W8 m ρ c (Proc.devRef .tc main_v59)
    = Cert.Spec.gathered (F := Ideal) (W7 m ρ c (Proc.devRef .tc main_v46)) (W7 m ρ c (Proc.devRef .tc main_v3)) (W7 m ρ c (Proc.devRef .tc main_v6)) (W7 m ρ c (Proc.devRef .tc main_v29)) := by
  show StableHlo.after hostOps3 (W7 m ρ c) (Proc.devRef .tc main_v59) = _
  simp only [hostOps3]
  after_results
  rfl

/-- … and lays `b1` out as a 1 × 64 row. -/
theorem row8 (q : Fin 64) : (W8 m ρ c (Proc.devRef .tc main_v60) : S1x64.Idx → Elt Ideal .f32) (ix2 (0 : Fin 1) q)
    = (m ((c : Thread nD τ).loc main_arg5) : S64.Idx → Elt Ideal .f32) (ix1 q) := by
  have e : W8 m ρ c (Proc.devRef .tc main_v60) = shapeCast S1x64 (W7 m ρ c (Proc.devRef .tc main_arg5)) shapeCasts_S64_S1x64 := by
    show StableHlo.after hostOps3 (W7 m ρ c) (Proc.devRef .tc main_v60) = _
    simp only [hostOps3]
    after_results
    rfl
  rw [e, arg5_7]
  exact shapeCast_a_1a_apply _ _ 0 q

/-- Region 3's output: the hidden features. -/
theorem hidden9 : W9 m ρ c (Proc.devRef .tc main_v61) = (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W9_arr m ρ c 2).trans ((Region3.final (V8 m ρ) c (m ((c : Thread nD τ).loc main_arg5)) (row8 m ρ c)).trans ?_)
  show Cert.Spec.biased (F := Ideal) (W8 m ρ c (Proc.devRef .tc main_v59)) (m ((c : Thread nD τ).loc main_arg5)) = _
  rw [gathered8, mixed7, sources7, targets7, coeff7]
  rfl

/-! ## The two heads -/

/-- The stretch before region 4 lays `bm` out as a 1 × 32 row. -/
theorem row10 (q : Fin 32) : (W10 m ρ c (Proc.devRef .tc main_v62) : S1x32.Idx → Elt Ideal .f32) (ix2 (0 : Fin 1) q)
    = (m ((c : Thread nD τ).loc main_arg7) : S32.Idx → Elt Ideal .f32) (ix1 q) := by
  have e : W10 m ρ c (Proc.devRef .tc main_v62) = shapeCast S1x32 (W9 m ρ c (Proc.devRef .tc main_arg7)) shapeCasts_S32_S1x32 := by
    show StableHlo.after hostOps4 (W9 m ρ c) (Proc.devRef .tc main_v62) = _
    simp only [hostOps4]
    after_results
    rfl
  rw [e, arg7_9]
  exact shapeCast_a_1a_apply _ _ 0 q

/-- Region 4's output: the first head. -/
theorem head11 : W11 m ρ c (Proc.devRef .tc main_v63) = Cert.Spec.head (F := Ideal) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine (W11_arr m ρ c 3).trans ((Region4.final (V10 m ρ) c (m ((c : Thread nD τ).loc main_arg7)) (row10 m ρ c)).trans ?_)
  show Cert.Spec.head (F := Ideal) (W10 m ρ c (Proc.devRef .tc main_v61)) (W10 m ρ c (Proc.devRef .tc main_arg6)) (m ((c : Thread nD τ).loc main_arg7)) = _
  rw [show W10 m ρ c (Proc.devRef .tc main_v61) = W9 m ρ c (Proc.devRef .tc main_v61) from by untouched hostOps4, hidden9,
    show W10 m ρ c (Proc.devRef .tc main_arg6) = W9 m ρ c (Proc.devRef .tc main_arg6) from by untouched hostOps4, arg6_9]

/-- THE FIRST RESULT at the last boundary. -/
theorem result0 : W13 m ρ c (Proc.devRef .tc main_v63) = Cert.Spec.head (F := Ideal) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) :=
  (W13_of_ne m ρ c main_v63 (by decide)).trans
    ((show W12 m ρ c (Proc.devRef .tc main_v63) = W11 m ρ c (Proc.devRef .tc main_v63) from by untouched hostOps5).trans (head11 m ρ c))

/-- The hidden features are still in their buffer when region 5 is entered: region 4 only read them. -/
theorem hidden12 : W12 m ρ c (Proc.devRef .tc main_v61) = (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (show W12 m ρ c (Proc.devRef .tc main_v61) = W11 m ρ c (Proc.devRef .tc main_v61) from by untouched hostOps5).trans
    ((W11_arr m ρ c 0).trans (((dat4 (V10 m ρ) c).arrAt_in 0 rfl _).trans ((A_eq4 (V10 m ρ) c 0).trans
      ((show W10 m ρ c (Proc.devRef .tc main_v61) = W9 m ρ c (Proc.devRef .tc main_v61) from by untouched hostOps4).trans (hidden9 m ρ c)))))

/-- The stretch before region 5 lays `bs` out as a 1 × 32 row. -/
theorem row12 (q : Fin 32) : (W12 m ρ c (Proc.devRef .tc main_v64) : S1x32.Idx → Elt Ideal .f32) (ix2 (0 : Fin 1) q)
    = (m ((c : Thread nD τ).loc main_arg9) : S32.Idx → Elt Ideal .f32) (ix1 q) := by
  have e : W12 m ρ c (Proc.devRef .tc main_v64) = shapeCast S1x32 (W11 m ρ c (Proc.devRef .tc main_arg9)) shapeCasts_S32_S1x32 := by
    show StableHlo.after hostOps5 (W11 m ρ c) (Proc.devRef .tc main_v64) = _
    simp only [hostOps5]
    after_results
    rfl
  rw [e, arg9_11]
  exact shapeCast_a_1a_apply _ _ 0 q

/-- THE SECOND RESULT at the last boundary: region 5's output, the second head. -/
theorem result1 : W13 m ρ c (Proc.devRef .tc main_v65) = Cert.Spec.head (F := Ideal) (Cert.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) (m ((c : Thread nD τ).loc main_arg9)) := by
  refine (W13_arr m ρ c 3).trans ((Region5.final (V12 m ρ) c (m ((c : Thread nD τ).loc main_arg9)) (row12 m ρ c)).trans ?_)
  show Cert.Spec.head (F := Ideal) (W12 m ρ c (Proc.devRef .tc main_v61)) (W12 m ρ c (Proc.devRef .tc main_arg8)) (m ((c : Thread nD τ).loc main_arg9)) = _
  rw [hidden12, show W12 m ρ c (Proc.devRef .tc main_arg8) = W11 m ρ c (Proc.devRef .tc main_arg8) from by untouched hostOps5, arg8_11]

end Cert.KernelIdeal.Chain

end
-- ==== Proof.RefSide.lean ====
/-
  The reference program's two results are the specification's network.

  The reference's run ends with each result buffer at one long term of its arguments: the composition of its 134 host
  operations. That term is, operation for operation, the specification's `head` of `hidden` — the products, the graph
  convolutions over the sources, targets and coefficients recomputed from the edge list, the biases and the clamps —
  so the two are one term once the specification's names are unfolded.
-/
import proofs.«118799_j7121055776880_1_alg».proof.Proof.RefRun
import proofs.«118799_j7121055776880_1_alg».proof.Proof.Spec
import Idealize.ShloMosaic.PureOps.Ideal

noncomputable section

namespace Cert.ReferenceIdeal.Whole

open Idealize.ShloMosaic Idealize.ShloMosaic.TcCoe Idealize.SL.Sem
open Cert.ReferenceIdeal Cert.ReferenceIdeal.Gen Cert.ReferenceIdeal.ValueP

variable (m : (ℓ : Loc nD τ sig) → Buf (Elt Ideal) ℓ) (c : Dev nD)

set_option maxRecDepth 16384 in
/-- The first result: the head with `Wm`, `bm` of the hidden features. -/
theorem result0 : res_main_v99 (F := Ideal) m c
    = Cert.Spec.head (F := Ideal) (Cert.Spec.hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) := by
  unfold res_main_v99
  rfl

set_option maxRecDepth 16384 in
/-- The second result: the head with `Ws`, `bs` of the same hidden features. -/
theorem result1 : res_main_v103 (F := Ideal) m c
    = Cert.Spec.head (F := Ideal) (Cert.Spec.hidden (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg8)) (m ((c.tc : Thread nD τ).loc main_arg9)) := by
  unfold res_main_v103
  rfl

end Cert.ReferenceIdeal.Whole

end
-- ==== Proof.lean ====
/-
  The certificate of a two-layer graph convolution network with two linear heads, kernel against reference, over the
  extended reals.

  Both programs compute, from node features `x`, an edge list `e` and the weights, the hidden features
    h = relu (conv (relu (conv (x · W0) + b0) · W1) + b1)
  and return the two heads `h · Wm + bm` and `h · Ws + bs`; `conv` sums into each node the rows of its sources, each
  scaled by the product of the inverse square roots of the two endpoints' degrees (self-loops added). The kernel program
  does the four products, the two biased clamps and the heads' biases in six pipelined regions of ten row blocks each and
  leaves the graph sums to the host; the reference does everything on the host and recomputes the degrees per layer.

  Over the extended reals the two are ONE function of the arguments, with no law beyond "a sum is a sum": a block's
  product only reads its own rows (the region statements), a product into the zero accumulator and the host's product
  are the same sum, a change of float format is the identity, and the host stretches between the regions are the very
  operations of the reference, on the same arrays. Finiteness of the inputs is never used.

    * frames: the kernel programs' are the generated frames; the reference's is its run with the results dropped;
    * preserves: the idealization rewrote nothing;
    * algebraic: the kernel program's run ends, at every buffer that lives for the whole program, with the last
      boundary's contents; at the two result buffers those are the specification's heads of the hidden features of the
      kernel's arguments (the chain); the reference's run ends with the same heads of ITS arguments, which agree.
-/
import proofs.«118799_j7121055776880_1_alg».proof.Defs
import proofs.«118799_j7121055776880_1_alg».proof.Proof.Gen.Kernel
import proofs.«118799_j7121055776880_1_alg».proof.Proof.Gen.Kernel.Skeleton
import proofs.«118799_j7121055776880_1_alg».proof.Proof.Gen.Kernel.Launch
import proofs.«118799_j7121055776880_1_alg».proof.Proof.Gen.Kernel.Points
import proofs.«118799_j7121055776880_1_alg».proof.Proof.Gen.Kernel.Frame
import proofs.«118799_j7121055776880_1_alg».proof.Proof.Gen.KernelIdeal
import proofs.«118799_j7121055776880_1_alg».proof.Proof.Gen.KernelIdeal.Skeleton
import proofs.«118799_j7121055776880_1_alg».proof.Proof.Gen.KernelIdeal.Launch
import proofs.«118799_j7121055776880_1_alg».proof.Proof.Gen.KernelIdeal.Points
import proofs.«118799_j7121055776880_1_alg».proof.Proof.Gen.KernelIdeal.Frame
import proofs.«118799_j7121055776880_1_alg».proof.Proof.Gen.ReferenceIdeal
import proofs.«118799_j7121055776880_1_alg».proof.Proof.Gen.Pre_finite_inputs
import proofs.«118799_j7121055776880_1_alg».proof.Proof.KernelRun
import proofs.«118799_j7121055776880_1_alg».proof.Proof.Chain
import proofs.«118799_j7121055776880_1_alg».proof.Proof.RefRun
import proofs.«118799_j7121055776880_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the two heads of the hidden features of the arguments. -/
theorem algebraic : Cert.algebraic_KernelIdeal_ReferenceIdeal := by
  intro m ρ m' ρ' _ hagree
  refine ⟨fun c => Cert.Spec.head (F := Ideal) (Cert.Spec.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.head (F := Ideal) (Cert.Spec.hidden (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Whole.run_last (F := Ideal) m ρ)
    exact ⟨(Cert.KernelIdeal.Whole.last_at m ρ h c Cert.KernelIdeal.main_v63 (by decide)).trans (Cert.KernelIdeal.Chain.result0 m ρ c),
      (Cert.KernelIdeal.Whole.last_at m ρ h c Cert.KernelIdeal.main_v65 (by decide)).trans (Cert.KernelIdeal.Chain.result1 m ρ c),
      (Cert.KernelIdeal.Whole.last_at m ρ h c Cert.KernelIdeal.main_arg0 (by decide)).trans (Cert.KernelIdeal.Gen.W13_main_arg0 m ρ c),
      (Cert.KernelIdeal.Whole.last_at m ρ h c Cert.KernelIdeal.main_arg1 (by decide)).trans (Cert.KernelIdeal.Gen.W13_main_arg1 m ρ c),
      (Cert.KernelIdeal.Whole.last_at m ρ h c Cert.KernelIdeal.main_arg2 (by decide)).trans (Cert.KernelIdeal.Gen.W13_main_arg2 m ρ c),
      (Cert.KernelIdeal.Whole.last_at m ρ h c Cert.KernelIdeal.main_arg3 (by decide)).trans (Cert.KernelIdeal.Gen.W13_main_arg3 m ρ c),
      (Cert.KernelIdeal.Whole.last_at m ρ h c Cert.KernelIdeal.main_arg4 (by decide)).trans (Cert.KernelIdeal.Gen.W13_main_arg4 m ρ c),
      (Cert.KernelIdeal.Whole.last_at m ρ h c Cert.KernelIdeal.main_arg5 (by decide)).trans (Cert.KernelIdeal.Gen.W13_main_arg5 m ρ c),
      (Cert.KernelIdeal.Whole.last_at m ρ h c Cert.KernelIdeal.main_arg6 (by decide)).trans (Cert.KernelIdeal.Gen.W13_main_arg6 m ρ c),
      (Cert.KernelIdeal.Whole.last_at m ρ h c Cert.KernelIdeal.main_arg7 (by decide)).trans (Cert.KernelIdeal.Gen.W13_main_arg7 m ρ c),
      (Cert.KernelIdeal.Whole.last_at m ρ h c Cert.KernelIdeal.main_arg8 (by decide)).trans (Cert.KernelIdeal.Gen.W13_main_arg8 m ρ c),
      (Cert.KernelIdeal.Whole.last_at m ρ h c Cert.KernelIdeal.main_arg9 (by decide)).trans (Cert.KernelIdeal.Gen.W13_main_arg9 m ρ c)⟩
  · refine (θ_run Cert.ReferenceIdeal.defs _ _).mono (fun r h c => ?_) (Cert.ReferenceIdeal.ValueP.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.Whole.result0, a0, a1, a2, a3, a4, a5, a6, a7]
    · rw [Cert.ReferenceIdeal.Whole.result1, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
